-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S32 .f32) (main_arg6 : FVec F S32x2 .f32) (main_arg7 : FVec F S2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x2 .f32 := Host.absf main_arg6
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x32 .f32) (main_arg3 : FVec F S32 .f32) (main_arg4 : FVec F S32x32 .f32) (main_arg5 : FVec F S32 .f32) (main_arg6 : FVec F S32x2 .f32) (main_arg7 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S1x2 : Shape := ⟨2, ![1, 2]⟩
abbrev S100000x2 : Shape := ⟨2, ![100000, 2]⟩
abbrev S10000x2 : Shape := ⟨2, ![10000, 2]⟩

abbrev nBuf : Space → Nat
  | .hbm => 86
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S3300000x1, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x32, .f32⟩
  | .hbm, ⟨76, _⟩ => ⟨S3300000x1, .f32⟩
  | .hbm, ⟨77, _⟩ => ⟨S3300000x32, .f32⟩
  | .hbm, ⟨78, _⟩ => ⟨S3300000x32, .f32⟩
  | .hbm, ⟨79, _⟩ => ⟨S_, .f32⟩
  | .hbm, ⟨80, _⟩ => ⟨S100000x32, .f32⟩
  | .hbm, ⟨81, _⟩ => ⟨S3300000x1, .i32⟩
  | .hbm, ⟨82, _⟩ => ⟨S100000x32, .f32⟩
  | .hbm, ⟨83, _⟩ => ⟨S1x32, .f32⟩
  | .hbm, ⟨84, _⟩ => ⟨S1x2, .f32⟩
  | .hbm, ⟨85, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S32x2, .f32⟩
  | .local _ .vmem, ⟨15, _⟩ => ⟨S1x2, .f32⟩
  | .local _ .vmem, ⟨16, _⟩ => ⟨S10000x2, .f32⟩
  | .local _ .vmem, ⟨17, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  shapeCasts_S2_S1x2 : S2.ShapeCasts S1x2
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  dot_S10000x32_S32x2_S10000x2_1_0_0_1_n_n_wf : DotDims.WF S10000x32 S32x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x2.size a ≤ S32x2.size a
  hwx2_2 : ∀ i : grid2.Coords, EltTy.bits .f32 = 32 ∨ (Rect.block (s := S32x2) S32x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x2.size a ≤ S100000x2.size a
  hwx2_4 : ∀ i : grid2.Coords, EltTy.bits .f32 = 32 ∨ (Rect.block (s := S100000x2) S10000x2.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S10000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x2 : Shape := ⟨2, ![100000, 2]⟩
abbrev S1x2 : Shape := ⟨2, ![1, 2]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S3300000x1, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x32, .f32⟩
  | .hbm, ⟨81, _⟩ => ⟨S3300000x1, .f32⟩
  | .hbm, ⟨82, _⟩ => ⟨S3300000x32, .f32⟩
  | .hbm, ⟨83, _⟩ => ⟨S3300000x32, .f32⟩
  | .hbm, ⟨84, _⟩ => ⟨S_, .f32⟩
  | .hbm, ⟨85, _⟩ => ⟨S100000x32, .f32⟩
  | .hbm, ⟨86, _⟩ => ⟨S3300000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S_, .f32⟩
  | .hbm, ⟨92, _⟩ => ⟨S100000x32, .f32⟩
  | .hbm, ⟨93, _⟩ => ⟨S100000x32, .f32⟩
  | .hbm, ⟨94, _⟩ => ⟨S100000x2, .f32⟩
  | .hbm, ⟨95, _⟩ => ⟨S1x2, .f32⟩
  | .hbm, ⟨96, _⟩ => ⟨S100000x2, .f32⟩
  | .hbm, ⟨97, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x2_S100000x2_1_0_0_1_n_n_wf : DotDims.WF S100000x32 S32x2 S100000x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.LayerSpec.lean ====
/-
  The three dense layers of a two-layer graph convolution, entry by entry, over the extended reals.

  Every layer is a product of a tall array of node features with a small weight matrix: entry (p, g) of the
  result is a sum over the feature axis k of a row entry times a weight entry. The first layer multiplies the
  raw features; the second and third first add a per-feature bias b(k) to the aggregated features and clamp the
  sum below at zero (the rectifier) before multiplying; the third also adds a per-class bias c(g) to the product.
  The zero of the rectifier is kept as the 32-bit pattern of +0.0 read at the ideal instance, the form in which
  both programs spell it, so it is never evaluated.
-/
import Idealize.ShloMosaic.PureOps.Ideal
import Idealize.ShloMosaic.Lib.ValueIdx

noncomputable section

namespace Cert.Layers

open Idealize.ShloMosaic Idealize.ShloMosaic.ValueIdx

/-- The rectifier's threshold: the pattern of +0.0 as an extended real. -/
abbrev floor0 : EReal := Ideal.ofBits .f32 0x00000000#32

variable {M K N : ℕ}

/-- Node features times weights: entry (p, g) is the sum over k of x(p, k) · w(k, g). -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A hidden layer: entry (p, g) is the sum over k of max(a(p, k) + b(k), 0) · w(k, g). -/
def hidden (a : (⟨2, ![M, K]⟩ : Shape).Idx → EReal) (b : (⟨1, ![K]⟩ : Shape).Idx → EReal)
    (w : (⟨2, ![K, N]⟩ : Shape).Idx → EReal) : (⟨2, ![M, N]⟩ : Shape).Idx → EReal :=
  fun i => ∑ k : Fin K, max (a (ix2 (i 0) k) + b (ix1 k)) floor0 * w (ix2 k (i 1))

/-- The classifier: a hidden layer's product plus the per-class bias c(g). -/
def classify (a : (⟨2, ![M, K]⟩ : Shape).Idx → EReal) (b : (⟨1, ![K]⟩ : Shape).Idx → EReal)
    (w : (⟨2, ![K, N]⟩ : Shape).Idx → EReal) (c : (⟨1, ![N]⟩ : Shape).Idx → EReal) :
    (⟨2, ![M, N]⟩ : Shape).Idx → EReal :=
  fun i => hidden a b w i + c (ix1 (i 1))

theorem project_apply (x : (⟨2, ![M, K]⟩ : Shape).Idx → EReal) (w : (⟨2, ![K, N]⟩ : Shape).Idx → EReal)
    (p : Fin M) (g : Fin N) : project x w (ix2 p g) = ∑ k : Fin K, x (ix2 p k) * w (ix2 k g) := rfl

theorem hidden_apply (a : (⟨2, ![M, K]⟩ : Shape).Idx → EReal) (b : (⟨1, ![K]⟩ : Shape).Idx → EReal)
    (w : (⟨2, ![K, N]⟩ : Shape).Idx → EReal) (p : Fin M) (g : Fin N) :
    hidden a b w (ix2 p g) = ∑ k : Fin K, max (a (ix2 p k) + b (ix1 k)) floor0 * w (ix2 k g) := rfl

theorem classify_apply (a : (⟨2, ![M, K]⟩ : Shape).Idx → EReal) (b : (⟨1, ![K]⟩ : Shape).Idx → EReal)
    (w : (⟨2, ![K, N]⟩ : Shape).Idx → EReal) (c : (⟨1, ![N]⟩ : Shape).Idx → EReal) (p : Fin M) (g : Fin N) :
    classify a b w c (ix2 p g)
      = (∑ k : Fin K, max (a (ix2 p k) + b (ix1 k)) floor0 * w (ix2 k g)) + c (ix1 g) := rfl

end Cert.Layers

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.InputProjection.lean ====
/-
  The first dense layer, computed block by block: h = x · W1.

  The node axis (100000 rows) is cut into ten blocks of 10000 rows. At grid point t the body multiplies rows
  10000·t … 10000·t + 9999 of x by the whole weight matrix and writes the product back as the same rows of
  the result. Entry (p, g) of a block's product is the sum over k of the block's (p, k) entry times W1(k, g), and
  the block's (p, k) entry is x(10000·t + p, k); so what point t writes back is block t of the whole product
  x · W1. The ten blocks tile the result (row r lies in block r / 10000), hence the result array ends holding
  x · W1 entry by entry. Everything is stated at an arbitrary contents V of the buffers at the region's entry.
-/
import proofs.«149034_j20521353741010_1_alg».proof.Proof.Gen.KernelIdeal.Frame
import proofs.«149034_j20521353741010_1_alg».proof.Proof.LayerSpec
import proofs.«149034_j20521353741010_1_alg».proof.Proof.LibPlainDot
import Idealize.ShloMosaic.Lib.Pipeline.Value
import Idealize.ShloMosaic.Lib.ValueIdx

set_option maxRecDepth 16384

noncomputable section

namespace Cert.KernelIdeal.InputProjection

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offset_zero : (![0, 0] : Fin 2 → Nat) = fun _ => 0 := funext fun a => by fin_cases a <;> rfl

/-- One block's product at an entry: the sum over k of the row block's (p, k) entry times the weight's (k, g). -/
theorem tile_apply (x0 : Vec Ideal S10000x128 .f32) (x1 : Vec Ideal S128x32 .f32) (p : Fin 10000) (g : Fin 32) :
    k0_pay1 (F := Ideal) x0 x1 (ix2 p g) = ∑ k : Fin 128, x0 (ix2 p k) * x1 (ix2 k g) := by
  unfold k0_pay1
  exact Cert.PlainDot.matmul_zero_apply dot_S10000x128_S128x32_S10000x32_1_0_0_1_n_n rfl _ _ p g

/-- A block whose rows are rows of X and whose weights are W gives, at (p, g), entry (r, g) of X · W. -/
theorem tile_eq (x0 : Vec Ideal S10000x128 .f32) (x1 : Vec Ideal S128x32 .f32)
    (X : S100000x128.Idx → EReal) (W : S128x32.Idx → EReal) (r : Fin 100000) (p : Fin 10000) (g : Fin 32)
    (h0 : ∀ k : Fin 128, x0 (ix2 p k) = X (ix2 r k)) (h1 : ∀ k : Fin 128, x1 (ix2 k g) = W (ix2 k g)) :
    k0_pay1 (F := Ideal) x0 x1 (ix2 p g) = Cert.Layers.project X W (ix2 r g) := by
  rw [tile_apply, Cert.Layers.project_apply]
  exact Finset.sum_congr rfl fun k _ => by rw [h0 k, h1 k]

/-- The printed index maps over the grid: the row blocks move with the point, the weights stay. -/
theorem idx_facts : ∀ t : Fin cfg0.N, t.val < 10
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q : Fin 10, ∃ t : Fin cfg0.N, win0_2.index t = ![q.val, 0] :=
  (by decide +kernel : ∀ q : Fin 10, ∃ t : Fin grid0.N, win0_2.index t = ![q.val, 0])

/-- What point t writes back is block t of x · W1. -/
theorem flushed_eq (c : Dev nD) (t : Fin cfg0.N) :
    (dat0 V c).flushed 2 t = ((cfg0.win 2).blk t).view.read (Elt Ideal)
      (Cert.Layers.project (V c main_arg0) (V c main_arg2)) := by
  show (cfg0.win 2).cut (grid0.coords t) ((dat0 V c).after 2 t) = _
  rw [after0_2]
  unfold out0_2
  rw [View.canon_unit_zero offset_zero]
  simp only [View.ld_unit_zero (S := S10000x128) offset_zero, View.ld_unit_zero (S := S128x32) offset_zero]
  obtain ⟨ht, e00, e01, e10, e11, e20, e21⟩ := idx_facts t
  funext j
  obtain ⟨p, g, rfl⟩ : ∃ (p : Fin 10000) (g : Fin 32), j = ix2 p g := ⟨j 0, j 1, eq_ix2 j⟩
  have hr : t.val * 10000 + p.val < 100000 := by have := p.isLt; omega
  have hemb : ((cfg0.win 2).blk t).view.emb (ix2 p g) = ix2 (⟨t.val * 10000 + p.val, hr⟩ : Fin 100000) g := by
    funext a; apply Fin.ext
    match a with
    | ⟨0, _⟩ => show win0_2.index t (0 : Fin 2) * 10000 + 1 * p.val = t.val * 10000 + p.val; omega
    | ⟨1, _⟩ => show win0_2.index t (1 : Fin 2) * 32 + 1 * g.val = g.val; omega
  show k0_pay1 (iblk0 V c 0 t) (iblk0 V c 1 t) (ix2 p g)
    = Cert.Layers.project (V c main_arg0) (V c main_arg2) (((cfg0.win 2).blk t).view.emb (ix2 p g))
  rw [hemb]
  refine tile_eq _ _ _ _ ⟨t.val * 10000 + p.val, hr⟩ p g (fun k => ?_) (fun k => ?_)
  · show V c main_arg0 (((cfg0.win 0).blk t).view.emb (ix2 p k)) = V c main_arg0 (ix2 ⟨t.val * 10000 + p.val, hr⟩ k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c main_arg2 (((cfg0.win 1).blk t).view.emb (ix2 k g)) = V c main_arg2 (ix2 k g)
    refine congrArg _ (funext fun a => Fin.ext ?_)
    match a with
    | ⟨0, _⟩ => show win0_1.index t (0 : Fin 2) * 128 + 1 * k.val = k.val; omega
    | ⟨1, _⟩ => show win0_1.index t (1 : Fin 2) * 32 + 1 * g.val = g.val; omega

/-- An index of the result lies in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v30).slice (win0_2.rect t)).set ↔ _
  rw [View.set_slice_whole, Rect.mem_set_unit]
  exact Iff.rfl

/-- The ten row blocks tile the result: row r lies in block r / 10000. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- The result array after the region: x · W1 of the arrays the region found. -/
theorem final (c : Dev nD) :
    (dat0 V c).arrAt 2 cfg0.N = Cert.Layers.project (V c main_arg0) (V c main_arg2) :=
  (dat0 V c).arrAt_eq_of_cover 2 _ (fun t _ => flushed_eq V c t) cover

end Cert.KernelIdeal.InputProjection

end
-- ==== Proof.HiddenLayer.lean ====
/-
  The second dense layer, computed block by block: h2 = max(agg1 + b1, 0) · W2.

  The node axis is cut into ten blocks of 10000 rows. At grid point t the body adds the bias row to rows
  10000·t … 10000·t + 9999 of the aggregated features, clamps the sum below at zero, multiplies by the whole
  weight matrix and writes the result back as the same rows of the output. Entry (p, g) of a block's
  result is the sum over k of max(a(10000·t + p, k) + b(k), 0) · w(k, g): block t of the whole layer. The ten
  blocks tile the output, so the output array ends holding the layer entry by entry. The bias arrives as a
  one-row array [1, 32]; its entry (0, k) is the bias of feature k. Everything is stated at an arbitrary contents
  V of the buffers at the region's entry.
-/
import proofs.«149034_j20521353741010_1_alg».proof.Proof.Gen.KernelIdeal.Frame
import proofs.«149034_j20521353741010_1_alg».proof.Proof.LayerSpec
import proofs.«149034_j20521353741010_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.HiddenLayer

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offset_zero : (![0, 0] : Fin 2 → Nat) = fun _ => 0 := funext fun a => by fin_cases a <;> rfl

/-- A one-row array read as the vector of its row. -/
abbrev rowVec {n : ℕ} (r : (⟨2, ![1, n]⟩ : Shape).Idx → EReal) : (⟨1, ![n]⟩ : Shape).Idx → EReal :=
  fun i => r (ix2 (0 : Fin 1) (i 0))

/-- One block's result at an entry. -/
theorem tile_apply (x0 : Vec Ideal S10000x32 .f32) (x1 : Vec Ideal S1x32 .f32) (x2 : Vec Ideal S32x32 .f32) (p : Fin 10000) (g : Fin 32) :
    k1_pay1 (F := Ideal) x0 x1 x2 (ix2 p g)
      = ∑ k : Fin 32, max (x0 (ix2 p k) + x1 (ix2 (0 : Fin 1) k)) Cert.Layers.floor0 * x2 (ix2 k g) := by
  unfold k1_pay1
  refine (Cert.PlainDot.matmul_zero_apply dot_S10000x32_S32x32_S10000x32_1_0_0_1_n_n rfl _ _ p g).trans ?_
  refine Finset.sum_congr rfl fun k _ => ?_
  rw [truncf_apply, truncf_apply, maximumf_apply, addf_apply, shapeCast_self, shapeCast_self, broadcastTo_1b_ab_apply, broadcast_apply]
  rfl

/-- A block whose rows are rows of A, with bias row b and weights W, gives at (p, g) entry (r, g) of the layer. -/
theorem tile_eq (x0 : Vec Ideal S10000x32 .f32) (x1 : Vec Ideal S1x32 .f32) (x2 : Vec Ideal S32x32 .f32)
    (A : S100000x32.Idx → EReal) (b : (⟨1, ![32]⟩ : Shape).Idx → EReal) (W : S32x32.Idx → EReal) (r : Fin 100000) (p : Fin 10000) (g : Fin 32)
    (h0 : ∀ k : Fin 32, x0 (ix2 p k) = A (ix2 r k)) (h1 : ∀ k : Fin 32, x1 (ix2 (0 : Fin 1) k) = b (ix1 k))
    (h2 : ∀ k : Fin 32, x2 (ix2 k g) = W (ix2 k g)) :
    k1_pay1 (F := Ideal) x0 x1 x2 (ix2 p g) = Cert.Layers.hidden A b W (ix2 r g) := by
  rw [tile_apply, Cert.Layers.hidden_apply]
  exact Finset.sum_congr rfl fun k _ => by rw [h0 k, h1 k, h2 k]

/-- The printed index maps over the grid: the row blocks move with the point, bias and weights stay. -/
theorem idx_facts : ∀ t : Fin cfg1.N, t.val < 10
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem idx_onto : ∀ q : Fin 10, ∃ t : Fin cfg1.N, win1_3.index t = ![q.val, 0] :=
  (by decide +kernel : ∀ q : Fin 10, ∃ t : Fin grid1.N, win1_3.index t = ![q.val, 0])

/-- What point t writes back is block t of the layer. -/
theorem flushed_eq (c : Dev nD) (t : Fin cfg1.N) :
    (dat1 V c).flushed 3 t = ((cfg1.win 3).blk t).view.read (Elt Ideal)
      (Cert.Layers.hidden (V c main_v43) (rowVec (V c main_v44)) (V c main_arg4)) := by
  show (cfg1.win 3).cut (grid1.coords t) ((dat1 V c).after 3 t) = _
  rw [after1_3]
  unfold out1_3
  rw [View.canon_unit_zero offset_zero]
  simp only [View.ld_unit_zero (S := S10000x32) offset_zero, View.ld_unit_zero (S := S1x32) offset_zero, View.ld_unit_zero (S := S32x32) offset_zero]
  obtain ⟨ht, e00, e01, e10, e11, e20, e21, e30, e31⟩ := idx_facts t
  funext j
  obtain ⟨p, g, rfl⟩ : ∃ (p : Fin 10000) (g : Fin 32), j = ix2 p g := ⟨j 0, j 1, eq_ix2 j⟩
  have hr : t.val * 10000 + p.val < 100000 := by have := p.isLt; omega
  have hemb : ((cfg1.win 3).blk t).view.emb (ix2 p g) = ix2 (⟨t.val * 10000 + p.val, hr⟩ : Fin 100000) g := by
    funext a; apply Fin.ext
    match a with
    | ⟨0, _⟩ => show win1_3.index t (0 : Fin 2) * 10000 + 1 * p.val = t.val * 10000 + p.val; omega
    | ⟨1, _⟩ => show win1_3.index t (1 : Fin 2) * 32 + 1 * g.val = g.val; omega
  show k1_pay1 (iblk1 V c 0 t) (iblk1 V c 1 t) (iblk1 V c 2 t) (ix2 p g)
    = (Cert.Layers.hidden (V c main_v43) (rowVec (V c main_v44)) (V c main_arg4)) (((cfg1.win 3).blk t).view.emb (ix2 p g))
  rw [hemb]
  refine tile_eq _ _ _ _ _ _ ⟨t.val * 10000 + p.val, hr⟩ p g (fun k => ?_) (fun k => ?_) (fun k => ?_)
  · show V c main_v43 (((cfg1.win 0).blk t).view.emb (ix2 p k)) = V c main_v43 (ix2 ⟨t.val * 10000 + p.val, hr⟩ k)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 32 + 1 * k.val = k.val; omega
  · show V c main_v44 (((cfg1.win 1).blk t).view.emb (ix2 (0 : Fin 1) k)) = V c main_v44 (ix2 (0 : Fin 1) k)
    refine congrArg _ (funext fun a => Fin.ext ?_)
    match a with
    | ⟨0, _⟩ => show win1_1.index t (0 : Fin 2) * 1 + 1 * 0 = 0; omega
    | ⟨1, _⟩ => show win1_1.index t (1 : Fin 2) * 32 + 1 * k.val = k.val; omega
  · show V c main_arg4 (((cfg1.win 2).blk t).view.emb (ix2 k g)) = V c main_arg4 (ix2 k g)
    refine congrArg _ (funext fun a => Fin.ext ?_)
    match a with
    | ⟨0, _⟩ => show win1_2.index t (0 : Fin 2) * 32 + 1 * k.val = k.val; omega
    | ⟨1, _⟩ => show win1_2.index t (1 : Fin 2) * 32 + 1 * g.val = g.val; omega

/-- An index of the output lies in point t's block iff each coordinate is in the block's range on its axis. -/
theorem mem_blk (t : Fin cfg1.N) (i : S100000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole main_v45).slice (win1_3.rect t)).set ↔ _
  rw [View.set_slice_whole, Rect.mem_set_unit]
  exact Iff.rfl

/-- The ten row blocks tile the output: row r lies in block r / 10000. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 32 ≤ (i 1).val ∧ (i 1).val < win1_3.index t (1 : Fin 2) * 32 + 32; omega

/-- The output array after the region: the layer of the arrays the region found. -/
theorem final (c : Dev nD) :
    (dat1 V c).arrAt 3 cfg1.N = Cert.Layers.hidden (V c main_v43) (rowVec (V c main_v44)) (V c main_arg4) :=
  (dat1 V c).arrAt_eq_of_cover 3 _ (fun t _ => flushed_eq V c t) cover

end Cert.KernelIdeal.HiddenLayer

end
-- ==== Proof.Classifier.lean ====
/-
  The classifier, computed block by block: logits = max(agg2 + b2, 0) · Wc + bc.

  The node axis is cut into ten blocks of 10000 rows. At grid point t the body adds the bias row to rows
  10000·t … 10000·t + 9999 of the aggregated features, clamps the sum below at zero, multiplies by the whole
  weight matrix, adds the class-bias row and writes the result back as the same rows of the output. Entry (p, g) of a block's
  result is the sum over k of max(a(10000·t + p, k) + b(k), 0) · w(k, g) plus c(g): block t of the whole layer. The ten
  blocks tile the output, so the output array ends holding the layer entry by entry. The bias arrives as a
  one-row array [1, 32]; its entry (0, k) is the bias of feature k. Everything is stated at an arbitrary contents
  V of the buffers at the region's entry.
-/
import proofs.«149034_j20521353741010_1_alg».proof.Proof.Gen.KernelIdeal.Frame
import proofs.«149034_j20521353741010_1_alg».proof.Proof.LayerSpec
import proofs.«149034_j20521353741010_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Classifier

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offset_zero : (![0, 0] : Fin 2 → Nat) = fun _ => 0 := funext fun a => by fin_cases a <;> rfl

/-- A one-row array read as the vector of its row. -/
abbrev rowVec {n : ℕ} (r : (⟨2, ![1, n]⟩ : Shape).Idx → EReal) : (⟨1, ![n]⟩ : Shape).Idx → EReal :=
  fun i => r (ix2 (0 : Fin 1) (i 0))

/-- One block's result at an entry. -/
theorem tile_apply (x0 : Vec Ideal S10000x32 .f32) (x1 : Vec Ideal S1x32 .f32) (x2 : Vec Ideal S32x2 .f32) (x3 : Vec Ideal S1x2 .f32) (p : Fin 10000) (g : Fin 2) :
    k2_pay1 (F := Ideal) x0 x1 x2 x3 (ix2 p g)
      = (∑ k : Fin 32, max (x0 (ix2 p k) + x1 (ix2 (0 : Fin 1) k)) Cert.Layers.floor0 * x2 (ix2 k g)) + x3 (ix2 (0 : Fin 1) g) := by
  unfold k2_pay1
  refine (addf_apply _ _ (ix2 p g)).trans ?_
  refine congrArg₂ (· + ·) ?_ ?_
  · refine (Cert.PlainDot.matmul_zero_apply dot_S10000x32_S32x2_S10000x2_1_0_0_1_n_n rfl _ _ p g).trans ?_
    refine Finset.sum_congr rfl fun k _ => ?_
    rw [truncf_apply, truncf_apply, maximumf_apply, addf_apply, shapeCast_self, shapeCast_self, broadcastTo_1b_ab_apply, broadcast_apply]
    rfl
  · rw [shapeCast_self]
    exact broadcastTo_1b_ab_apply _ _ p g

/-- A block whose rows are rows of A, with bias row b and weights W, gives at (p, g) entry (r, g) of the layer. -/
theorem tile_eq (x0 : Vec Ideal S10000x32 .f32) (x1 : Vec Ideal S1x32 .f32) (x2 : Vec Ideal S32x2 .f32) (x3 : Vec Ideal S1x2 .f32)
    (A : S100000x32.Idx → EReal) (b : (⟨1, ![32]⟩ : Shape).Idx → EReal) (W : S32x2.Idx → EReal) (cb : (⟨1, ![2]⟩ : Shape).Idx → EReal) (r : Fin 100000) (p : Fin 10000) (g : Fin 2)
    (h0 : ∀ k : Fin 32, x0 (ix2 p k) = A (ix2 r k)) (h1 : ∀ k : Fin 32, x1 (ix2 (0 : Fin 1) k) = b (ix1 k))
    (h2 : ∀ k : Fin 32, x2 (ix2 k g) = W (ix2 k g)) (h3 : x3 (ix2 (0 : Fin 1) g) = cb (ix1 g)) :
    k2_pay1 (F := Ideal) x0 x1 x2 x3 (ix2 p g) = Cert.Layers.classify A b W cb (ix2 r g) := by
  rw [tile_apply, Cert.Layers.classify_apply]
  rw [h3]
  exact congrArg (· + cb (ix1 g)) (Finset.sum_congr rfl fun k _ => by rw [h0 k, h1 k, h2 k])

/-- The printed index maps over the grid: the row blocks move with the point, bias and weights stay. -/
theorem idx_facts : ∀ t : Fin cfg2.N, t.val < 10
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Every row block is some point's. -/
theorem idx_onto : ∀ q : Fin 10, ∃ t : Fin cfg2.N, win2_4.index t = ![q.val, 0] :=
  (by decide +kernel : ∀ q : Fin 10, ∃ t : Fin grid2.N, win2_4.index t = ![q.val, 0])

/-- What point t writes back is block t of the layer. -/
theorem flushed_eq (c : Dev nD) (t : Fin cfg2.N) :
    (dat2 V c).flushed 4 t = ((cfg2.win 4).blk t).view.read (Elt Ideal)
      (Cert.Layers.classify (V c main_v58) (rowVec (V c main_v59)) (V c main_arg6) (rowVec (V c main_v60))) := by
  show (cfg2.win 4).cut (grid2.coords t) ((dat2 V c).after 4 t) = _
  rw [after2_4]
  unfold out2_4
  rw [View.canon_unit_zero offset_zero]
  simp only [View.ld_unit_zero (S := S10000x32) offset_zero, View.ld_unit_zero (S := S1x32) offset_zero, View.ld_unit_zero (S := S32x2) offset_zero, View.ld_unit_zero (S := S1x2) offset_zero]
  obtain ⟨ht, e00, e01, e10, e11, e20, e21, e30, e31, e40, e41⟩ := idx_facts t
  funext j
  obtain ⟨p, g, rfl⟩ : ∃ (p : Fin 10000) (g : Fin 2), j = ix2 p g := ⟨j 0, j 1, eq_ix2 j⟩
  have hr : t.val * 10000 + p.val < 100000 := by have := p.isLt; omega
  have hemb : ((cfg2.win 4).blk t).view.emb (ix2 p g) = ix2 (⟨t.val * 10000 + p.val, hr⟩ : Fin 100000) g := by
    funext a; apply Fin.ext
    match a with
    | ⟨0, _⟩ => show win2_4.index t (0 : Fin 2) * 10000 + 1 * p.val = t.val * 10000 + p.val; omega
    | ⟨1, _⟩ => show win2_4.index t (1 : Fin 2) * 2 + 1 * g.val = g.val; omega
  show k2_pay1 (iblk2 V c 0 t) (iblk2 V c 1 t) (iblk2 V c 2 t) (iblk2 V c 3 t) (ix2 p g)
    = (Cert.Layers.classify (V c main_v58) (rowVec (V c main_v59)) (V c main_arg6) (rowVec (V c main_v60))) (((cfg2.win 4).blk t).view.emb (ix2 p g))
  rw [hemb]
  refine tile_eq _ _ _ _ _ _ _ _ ⟨t.val * 10000 + p.val, hr⟩ p g (fun k => ?_) (fun k => ?_) (fun k => ?_) ?_
  · show V c main_v58 (((cfg2.win 0).blk t).view.emb (ix2 p k)) = V c main_v58 (ix2 ⟨t.val * 10000 + p.val, hr⟩ k)
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 32 + 1 * k.val = k.val; omega
  · show V c main_v59 (((cfg2.win 1).blk t).view.emb (ix2 (0 : Fin 1) k)) = V c main_v59 (ix2 (0 : Fin 1) k)
    refine congrArg _ (funext fun a => Fin.ext ?_)
    match a with
    | ⟨0, _⟩ => show win2_1.index t (0 : Fin 2) * 1 + 1 * 0 = 0; omega
    | ⟨1, _⟩ => show win2_1.index t (1 : Fin 2) * 32 + 1 * k.val = k.val; omega
  · show V c main_arg6 (((cfg2.win 2).blk t).view.emb (ix2 k g)) = V c main_arg6 (ix2 k g)
    refine congrArg _ (funext fun a => Fin.ext ?_)
    match a with
    | ⟨0, _⟩ => show win2_2.index t (0 : Fin 2) * 32 + 1 * k.val = k.val; omega
    | ⟨1, _⟩ => show win2_2.index t (1 : Fin 2) * 2 + 1 * g.val = g.val; omega
  · show V c main_v60 (((cfg2.win 3).blk t).view.emb (ix2 (0 : Fin 1) g)) = V c main_v60 (ix2 (0 : Fin 1) g)
    refine congrArg _ (funext fun a => Fin.ext ?_)
    match a with
    | ⟨0, _⟩ => show win2_3.index t (0 : Fin 2) * 1 + 1 * 0 = 0; omega
    | ⟨1, _⟩ => show win2_3.index t (1 : Fin 2) * 2 + 1 * g.val = g.val; omega

/-- An index of the output lies in point t's block iff each coordinate is in the block's range on its axis. -/
theorem mem_blk (t : Fin cfg2.N) (i : S100000x2.Idx) :
    i ∈ ((cfg2.win 4).blk t).view.set ↔ ∀ a : Fin 2, win2_4.index t a * S10000x2.size a ≤ (i a).val
      ∧ (i a).val < win2_4.index t a * S10000x2.size a + S10000x2.size a := by
  show i ∈ ((View.whole main_v61).slice (win2_4.rect t)).set ↔ _
  rw [View.set_slice_whole, Rect.mem_set_unit]
  exact Iff.rfl

/-- The ten row blocks tile the output: row r lies in block r / 10000. -/
theorem cover (i : S100000x2.Idx) :
    ∃ t : Fin cfg2.N, (cfg2.win 4).flush t = true ∧ i ∈ ((cfg2.win 4).blk t).view.set := by
  have hi0 : (i 0).val < 100000 := (i 0).isLt
  have hi1 : (i 1).val < 2 := (i 1).isLt
  obtain ⟨t, ht⟩ := idx_onto ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 2 ≤ (i 1).val ∧ (i 1).val < win2_4.index t (1 : Fin 2) * 2 + 2; omega

/-- The output array after the region: the layer of the arrays the region found. -/
theorem final (c : Dev nD) :
    (dat2 V c).arrAt 4 cfg2.N = Cert.Layers.classify (V c main_v58) (rowVec (V c main_v59)) (V c main_arg6) (rowVec (V c main_v60)) :=
  (dat2 V c).arrAt_eq_of_cover 4 _ (fun t _ => flushed_eq V c t) cover

end Cert.KernelIdeal.Classifier

end
-- ==== Proof.RefLayers.lean ====
/-
  The reference's three dense stages are the layer functions of LayerSpec.

  The reference multiplies with the host's dot_general; between the aggregation and the next product it adds
  the bias, laid out first as a row [1, K] and then repeated down the node axis, and takes the maximum with a
  zero array. Read at an entry (p, k) the repeated bias is b(k) and the zero array is the pattern of +0.0, so
  the operand of the product is max(a(p, k) + b(k), 0) and the product's entry (p, g) is the sum over k of that
  times w(k, g). The final stage adds the class bias, laid out the same way, to the product.
-/
import proofs.«149034_j20521353741010_1_alg».proof.Proof.RefReadPatched
import proofs.«149034_j20521353741010_1_alg».proof.Proof.LayerSpec
import proofs.«149034_j20521353741010_1_alg».proof.Proof.LibPlainDot
import Idealize.ShloMosaic.Lib.ValueIdx

noncomputable section

namespace Cert.ReferenceIdeal.RefLayers

open Cert.ReferenceIdeal Cert.ReferenceIdeal.Read
open Idealize.ShloMosaic Idealize.ShloMosaic.TcCoe Idealize.ShloMosaic.ValueIdx

/-- A product whose left operand is max(a + B, Z), with B the bias b repeated down the rows and Z constantly
    the threshold, is the hidden layer of a, b and the weights. -/
theorem hidden_of {N : ℕ} (d : DotDims ⟨2, ![100000, 32]⟩ ⟨2, ![32, N]⟩ ⟨2, ![100000, N]⟩)
    (hd : d = DotDims.plain 100000 32 N)
    (a B Z : FVec Ideal ⟨2, ![100000, 32]⟩ .f32) (b : (⟨1, ![32]⟩ : Shape).Idx → EReal)
    (w : FVec Ideal ⟨2, ![32, N]⟩ .f32)
    (hB : ∀ (p : Fin 100000) (k : Fin 32), B (ix2 p k) = b (ix1 k)) (hZ : ∀ i, Z i = Cert.Layers.floor0) :
    Host.dotGeneral (F := Ideal) d none (maximumf (addf a B) Z) w = Cert.Layers.hidden a b w := by
  funext i
  obtain ⟨p, g, rfl⟩ : ∃ (p : Fin 100000) (g : Fin N), i = ix2 p g := ⟨i 0, i 1, eq_ix2 i⟩
  rw [Cert.PlainDot.hostDot_apply d hd _ w p g, Cert.Layers.hidden_apply]
  refine Finset.sum_congr rfl fun k _ => ?_
  rw [maximumf_apply, addf_apply, hB p k, hZ]

/-- The bias of the first hidden layer, repeated down the rows, at (p, k). -/
theorem bias1_apply (x3 : (⟨S32, .f32⟩ : BufTy).Contents (Elt Ideal)) (p : Fin 100000) (k : Fin 32) :
    val_main_v45 (F := Ideal) x3 (ix2 p k) = x3 (ix1 k) := by
  rw [val_main_v45_apply, val_main_v44_apply]
  exact congrArg x3 (funext fun a => match a with | ⟨0, _⟩ => rfl)

/-- The bias of the second hidden layer, repeated down the rows, at (p, k). -/
theorem bias2_apply (x5 : (⟨S32, .f32⟩ : BufTy).Contents (Elt Ideal)) (p : Fin 100000) (k : Fin 32) :
    val_main_v63 (F := Ideal) x5 (ix2 p k) = x5 (ix1 k) := by
  rw [val_main_v63_apply, val_main_v62_apply]
  exact congrArg x5 (funext fun a => match a with | ⟨0, _⟩ => rfl)

/-- The class bias, repeated down the rows, at (p, g). -/
theorem bias3_apply (x7 : (⟨S2, .f32⟩ : BufTy).Contents (Elt Ideal)) (p : Fin 100000) (g : Fin 2) :
    val_main_v68 (F := Ideal) x7 (ix2 p g) = x7 (ix1 g) := by
  rw [val_main_v68_apply, val_main_v67_apply]
  exact congrArg x7 (funext fun a => match a with | ⟨0, _⟩ => rfl)

/-- The rectifier's zero array is the threshold everywhere (first call). -/
theorem zero1_apply (i : S100000x32.Idx) : val_main_call1_v0 (F := Ideal) i = Cert.Layers.floor0 := by
  rw [val_main_call1_v0_apply, val_main_call1_cst_apply]; rfl

/-- The rectifier's zero array is the threshold everywhere (second call). -/
theorem zero2_apply (i : S100000x32.Idx) : val_main_call2_v0 (F := Ideal) i = Cert.Layers.floor0 := by
  rw [val_main_call2_v0_apply, val_main_call2_cst_apply]; rfl

variable (x0 : (⟨S100000x128, .f32⟩ : BufTy).Contents (Elt Ideal)) (x1 : (⟨S2x3200000, .i32⟩ : BufTy).Contents (Elt Ideal))
  (x2 : (⟨S128x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x2, .f32⟩ : BufTy).Contents (Elt Ideal)) (x7 : (⟨S2, .f32⟩ : BufTy).Contents (Elt Ideal))

/-- The first product is x · W1. -/
theorem first_eq : val_main_v30 (F := Ideal) x0 x2 = Cert.Layers.project x0 x2 := by
  funext i
  obtain ⟨p, g, rfl⟩ : ∃ (p : Fin 100000) (g : Fin 32), i = ix2 p g := ⟨i 0, i 1, eq_ix2 i⟩
  unfold val_main_v30
  exact Cert.PlainDot.hostDot_apply dot_S100000x128_S128x32_S100000x32_1_0_0_1_n_n rfl x0 x2 p g

/-- The second product is the hidden layer of the first aggregation. -/
theorem second_eq : val_main_v48 (F := Ideal) x0 x1 x2 x3 x4
    = Cert.Layers.hidden (val_main_v43 (F := Ideal) x0 x1 x2) x3 x4 := by
  unfold val_main_v48 val_main_v47 val_main_v46
  exact hidden_of dot_S100000x32_S32x32_S100000x32_1_0_0_1_n_n rfl _ _ _ x3 x4 (bias1_apply x3) zero1_apply

/-- The result is the classifier of the second aggregation. -/
theorem third_eq : val_main_v69 (F := Ideal) x0 x1 x2 x3 x4 x5 x6 x7
    = Cert.Layers.classify (val_main_v61 (F := Ideal) x0 x1 x2 x3 x4) x5 x6 x7 := by
  funext i
  obtain ⟨p, g, rfl⟩ : ∃ (p : Fin 100000) (g : Fin 2), i = ix2 p g := ⟨i 0, i 1, eq_ix2 i⟩
  rw [val_main_v69_apply, bias3_apply]
  unfold val_main_v66 val_main_v65 val_main_v64
  rw [hidden_of dot_S100000x32_S32x2_S100000x2_1_0_0_1_n_n rfl _ _ _ x5 x6 (bias2_apply x5) zero2_apply]
  rfl

end Cert.ReferenceIdeal.RefLayers

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.Boundaries.lean ====
/-
  The kernel's buffers at the boundaries between its host stretches and its three dense layers.

  Between two layers the program gathers each edge's source row, scales it by the edge's normalisation
  coefficient and adds it into the destination row; the coefficients and the two index lists depend on the edge
  list only. Both programs spell these stretches with the same operations in the same order, so each buffer of
  the kernel program, read at the boundary where a dense layer starts, is the reference's stage of the same
  name applied to the launch arguments: an index list or the coefficients by unfolding the stretch that computes
  them, an aggregation by unfolding its stretch over the previous layer's output, and a layer's output by the
  block-by-block results of the layer modules together with the reference's own dense stages read as the same
  layer functions. A buffer that a stretch or a layer does not write keeps its contents across it.
-/
import proofs.«149034_j20521353741010_1_alg».proof.Proof.Gen.KernelIdeal.Frame
import proofs.«149034_j20521353741010_1_alg».proof.Proof.RefReadPatched
import proofs.«149034_j20521353741010_1_alg».proof.Proof.InputProjection
import proofs.«149034_j20521353741010_1_alg».proof.Proof.HiddenLayer
import proofs.«149034_j20521353741010_1_alg».proof.Proof.Classifier
import proofs.«149034_j20521353741010_1_alg».proof.Proof.RefLayers
import proofs.«149034_j20521353741010_1_alg».proof.Proof.LibHostCalls
import Idealize.ShloMosaic.Lib.StableHlo.Run
import Idealize.ShloMosaic.Lib.ValueLayout

set_option maxRecDepth 16384

noncomputable section

namespace Cert.KernelIdeal.Boundaries

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The first stretch: the two index lists and what the degree normalisation is computed from -/

theorem src_1 : W1 m ρ c (Proc.devRef .tc main_v5) = Cert.ReferenceIdeal.Read.val_main_v5 (F := Ideal) (m ((c : Thread nD τ).loc main_arg1)) := by
  show StableHlo.after hostOps0 (W0 m ρ c) (Proc.devRef .tc main_v5) = _
  dsimp only [hostOps0]
  after_results
  rfl

theorem dst_1 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  dsimp only [hostOps0]
  after_results
  rfl

theorem degPos_1 : W1 m ρ c (Proc.devRef .tc main_v12) = Cert.ReferenceIdeal.Read.val_main_v12 (F := Ideal) (m ((c : Thread nD τ).loc main_arg1)) := by
  show StableHlo.after hostOps0 (W0 m ρ c) (Proc.devRef .tc main_v12) = _
  dsimp only [hostOps0]
  after_results
  rfl

theorem degRsqrt_1 : W1 m ρ c (Proc.devRef .tc main_v13) = Cert.ReferenceIdeal.Read.val_main_v13 (F := Ideal) (m ((c : Thread nD τ).loc main_arg1)) := by
  show StableHlo.after hostOps0 (W0 m ρ c) (Proc.devRef .tc main_v13) = _
  dsimp only [hostOps0]
  after_results
  rfl

theorem zero_1 : W1 m ρ c (Proc.devRef .tc main_cst_2) = Cert.ReferenceIdeal.Read.val_main_cst_2 (F := Ideal) := by
  show StableHlo.after hostOps0 (W0 m ρ c) (Proc.devRef .tc main_cst_2) = _
  dsimp only [hostOps0]
  after_results
  rfl

/-! ## The call that selects the inverse square root of the degree where the degree is positive -/

theorem src_2 : W2 m ρ c (Proc.devRef .tc main_v5) = Cert.ReferenceIdeal.Read.val_main_v5 (F := Ideal) (m ((c : Thread nD τ).loc main_arg1)) :=
  (StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (src_1 m ρ c)

theorem dst_2 : W2 m ρ c (Proc.devRef .tc main_v6) = Cert.ReferenceIdeal.Read.val_main_v6 (F := Ideal) (m ((c : Thread nD τ).loc main_arg1)) :=
  (StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (dst_1 m ρ c)

/-- A value read out of, or put into, a buffer whose type is literally the value's type is the value. -/
theorem into_v14 (v : (⟨S100000, .f32⟩ : BufTy).Contents (Elt Ideal)) :
    (TRef.of (T := ⟨S100000, .f32⟩) main_v14).toBuf v = v := rfl
theorem outof_v12 (v : (main_v12 : Ref sig .tc).ty.Contents (Elt Ideal)) :
    (TRef.of (T := ⟨S100000, .i1⟩) main_v12).ofBuf v = v := rfl
theorem outof_v13 (v : (main_v13 : Ref sig .tc).ty.Contents (Elt Ideal)) :
    (TRef.of (T := ⟨S100000, .f32⟩) main_v13).ofBuf v = v := rfl
theorem outof_cst_2 (v : (main_cst_2 : Ref sig .tc).ty.Contents (Elt Ideal)) :
    (TRef.of (T := ⟨S_, .f32⟩) main_cst_2).ofBuf v = v := rfl

/-- The selecting call over any contents of the buffers it reads. -/
theorem select_of (V : Valuation τ sig (Elt Ideal)) (x1 : (⟨S2x3200000, .i32⟩ : BufTy).Contents (Elt Ideal))
    (h12 : V (Proc.devRef .tc main_v12) = Cert.ReferenceIdeal.Read.val_main_v12 (F := Ideal) x1)
    (h13 : V (Proc.devRef .tc main_v13) = Cert.ReferenceIdeal.Read.val_main_v13 (F := Ideal) x1)
    (hz : V (Proc.devRef .tc main_cst_2) = Cert.ReferenceIdeal.Read.val_main_cst_2 (F := Ideal)) :
    StableHlo.after hostOps0_1 V (Proc.devRef .tc main_v14) = Cert.ReferenceIdeal.Read.val_main_v14 (F := Ideal) x1 := by
  dsimp only [hostOps0_1]
  after_results
  simp only [Cert.Lib.HostCalls.ofBuf_toBuf]
  rw [into_v14, outof_v12, outof_v13, outof_cst_2, h12, h13, hz]
  rfl

theorem invSqrtDeg_2 : W2 m ρ c (Proc.devRef .tc main_v14) = Cert.ReferenceIdeal.Read.val_main_v14 (F := Ideal) (m ((c : Thread nD τ).loc main_arg1)) :=
  select_of (W1 m ρ c) _ (degPos_1 m ρ c) (degRsqrt_1 m ρ c) (zero_1 m ρ c)

/-! ## The normalisation coefficients of the edges -/

theorem src_3 : W3 m ρ c (Proc.devRef .tc main_v5) = Cert.ReferenceIdeal.Read.val_main_v5 (F := Ideal) (m ((c : Thread nD τ).loc main_arg1)) :=
  (StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (src_2 m ρ c)

theorem dst_3 : W3 m ρ c (Proc.devRef .tc main_v6) = Cert.ReferenceIdeal.Read.val_main_v6 (F := Ideal) (m ((c : Thread nD τ).loc main_arg1)) :=
  (StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (dst_2 m ρ c)

set_option maxHeartbeats 4000000 in
/-- The coefficients' stretch over any contents of the buffers it reads. -/
theorem coeff_of (V : Valuation τ sig (Elt Ideal)) (x1 : (⟨S2x3200000, .i32⟩ : BufTy).Contents (Elt Ideal))
    (h5 : V (Proc.devRef .tc main_v5) = Cert.ReferenceIdeal.Read.val_main_v5 (F := Ideal) x1)
    (h6 : V (Proc.devRef .tc main_v6) = Cert.ReferenceIdeal.Read.val_main_v6 (F := Ideal) x1)
    (h14 : V (Proc.devRef .tc main_v14) = Cert.ReferenceIdeal.Read.val_main_v14 (F := Ideal) x1) :
    StableHlo.after hostOps0_2 V (Proc.devRef .tc main_v29) = Cert.ReferenceIdeal.Read.val_main_v29 (F := Ideal) x1 := by
  dsimp only [hostOps0_2]
  after_results_simp
  rw [h5, h6, h14]
  rfl

theorem coeff_3 : W3 m ρ c (Proc.devRef .tc main_v29) = Cert.ReferenceIdeal.Read.val_main_v29 (F := Ideal) (m ((c : Thread nD τ).loc main_arg1)) :=
  coeff_of (W2 m ρ c) _ (src_2 m ρ c) (dst_2 m ρ c) (invSqrtDeg_2 m ρ c)

/-! ## The first dense layer -/

theorem features_3 : W3 m ρ c (Proc.devRef .tc main_arg0) = (m ((c : Thread nD τ).loc main_arg0)) :=
  ((StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)))

theorem weights1_3 : W3 m ρ c (Proc.devRef .tc main_arg2) = (m ((c : Thread nD τ).loc main_arg2)) :=
  ((StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)))

theorem firstLayer_4 : W4 m ρ c (Proc.devRef .tc main_v30) = Cert.ReferenceIdeal.Read.val_main_v30 (F := Ideal) (m ((c : Thread nD τ).loc main_arg0)) (m ((c : Thread nD τ).loc main_arg2)) := by
  rw [Cert.ReferenceIdeal.RefLayers.first_eq]
  refine (W4_arr m ρ c 2).trans ((Cert.KernelIdeal.InputProjection.final (V3 m ρ) c).trans ?_)
  exact congr (congrArg Cert.Layers.project (features_3 m ρ c)) (weights1_3 m ρ c)

theorem src_4 : W4 m ρ c (Proc.devRef .tc main_v5) = Cert.ReferenceIdeal.Read.val_main_v5 (F := Ideal) (m ((c : Thread nD τ).loc main_arg1)) :=
  (W4_of_ne m ρ c main_v5 (by decide)).trans (src_3 m ρ c)

theorem dst_4 : W4 m ρ c (Proc.devRef .tc main_v6) = Cert.ReferenceIdeal.Read.val_main_v6 (F := Ideal) (m ((c : Thread nD τ).loc main_arg1)) :=
  (W4_of_ne m ρ c main_v6 (by decide)).trans (dst_3 m ρ c)

theorem coeff_4 : W4 m ρ c (Proc.devRef .tc main_v29) = Cert.ReferenceIdeal.Read.val_main_v29 (F := Ideal) (m ((c : Thread nD τ).loc main_arg1)) :=
  (W4_of_ne m ρ c main_v29 (by decide)).trans (coeff_3 m ρ c)

theorem bias1_4 : W4 m ρ c (Proc.devRef .tc main_arg3) = (m ((c : Thread nD τ).loc main_arg3)) :=
  (W4_of_ne m ρ c main_arg3 (by decide)).trans ((StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)))

theorem weights2_4 : W4 m ρ c (Proc.devRef .tc main_arg4) = (m ((c : Thread nD τ).loc main_arg4)) :=
  (W4_of_ne m ρ c main_arg4 (by decide)).trans ((StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)))

theorem bias2_4 : W4 m ρ c (Proc.devRef .tc main_arg5) = (m ((c : Thread nD τ).loc main_arg5)) :=
  (W4_of_ne m ρ c main_arg5 (by decide)).trans ((StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)))

theorem weights3_4 : W4 m ρ c (Proc.devRef .tc main_arg6) = (m ((c : Thread nD τ).loc main_arg6)) :=
  (W4_of_ne m ρ c main_arg6 (by decide)).trans ((StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)))

theorem classBias_4 : W4 m ρ c (Proc.devRef .tc main_arg7) = (m ((c : Thread nD τ).loc main_arg7)) :=
  (W4_of_ne m ρ c main_arg7 (by decide)).trans ((StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)))

/-! ## The first aggregation over the edges, and the first bias as a row -/

set_option maxHeartbeats 4000000 in
/-- The aggregation stretch over any contents of the buffers it reads. -/
theorem aggregate1_of (V : Valuation τ sig (Elt Ideal)) (x0 : (⟨S100000x128, .f32⟩ : BufTy).Contents (Elt Ideal)) (x1 : (⟨S2x3200000, .i32⟩ : BufTy).Contents (Elt Ideal)) (x2 : (⟨S128x32, .f32⟩ : BufTy).Contents (Elt Ideal))
    (h30 : V (Proc.devRef .tc main_v30) = Cert.ReferenceIdeal.Read.val_main_v30 (F := Ideal) x0 x2)
    (h5 : V (Proc.devRef .tc main_v5) = Cert.ReferenceIdeal.Read.val_main_v5 (F := Ideal) x1)
    (h6 : V (Proc.devRef .tc main_v6) = Cert.ReferenceIdeal.Read.val_main_v6 (F := Ideal) x1)
    (h29 : V (Proc.devRef .tc main_v29) = Cert.ReferenceIdeal.Read.val_main_v29 (F := Ideal) x1) :
    StableHlo.after hostOps1 V (Proc.devRef .tc main_v43) = Cert.ReferenceIdeal.Read.val_main_v43 (F := Ideal) x0 x1 x2 := by
  dsimp only [hostOps1]
  after_results_simp
  rw [h30, h5, h6, h29]
  rfl

set_option maxHeartbeats 4000000 in
/-- The bias vector laid out as a one-row array reads back, along its row, as the vector. -/
theorem biasRow1_of (V : Valuation τ sig (Elt Ideal)) (b : (⟨S32, .f32⟩ : BufTy).Contents (Elt Ideal))
    (h3 : V (Proc.devRef .tc main_arg3) = b) :
    Cert.KernelIdeal.HiddenLayer.rowVec (StableHlo.after hostOps1 V (Proc.devRef .tc main_v44)) = b := by
  dsimp only [hostOps1]
  after_results_simp
  rw [h3]
  funext i
  obtain ⟨k, rfl⟩ : ∃ k : Fin 32, i = ix1 k := ⟨i 0, eq_ix1 i⟩
  exact shapeCast_a_1a_apply b shapeCasts_S32_S1x32 0 k

theorem agg1_5 : W5 m ρ c (Proc.devRef .tc main_v43) = Cert.ReferenceIdeal.Read.val_main_v43 (F := Ideal) (m ((c : Thread nD τ).loc main_arg0)) (m ((c : Thread nD τ).loc main_arg1)) (m ((c : Thread nD τ).loc main_arg2)) :=
  aggregate1_of (W4 m ρ c) _ _ _ (firstLayer_4 m ρ c) (src_4 m ρ c) (dst_4 m ρ c) (coeff_4 m ρ c)

theorem biasRow1_5 : Cert.KernelIdeal.HiddenLayer.rowVec (W5 m ρ c (Proc.devRef .tc main_v44)) = (m ((c : Thread nD τ).loc main_arg3)) :=
  biasRow1_of (W4 m ρ c) _ (bias1_4 m ρ c)

theorem weights2_5 : W5 m ρ c (Proc.devRef .tc main_arg4) = (m ((c : Thread nD τ).loc main_arg4)) :=
  (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (weights2_4 m ρ c)

theorem src_5 : W5 m ρ c (Proc.devRef .tc main_v5) = Cert.ReferenceIdeal.Read.val_main_v5 (F := Ideal) (m ((c : Thread nD τ).loc main_arg1)) :=
  (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (src_4 m ρ c)

theorem dst_5 : W5 m ρ c (Proc.devRef .tc main_v6) = Cert.ReferenceIdeal.Read.val_main_v6 (F := Ideal) (m ((c : Thread nD τ).loc main_arg1)) :=
  (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (dst_4 m ρ c)

theorem coeff_5 : W5 m ρ c (Proc.devRef .tc main_v29) = Cert.ReferenceIdeal.Read.val_main_v29 (F := Ideal) (m ((c : Thread nD τ).loc main_arg1)) :=
  (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (coeff_4 m ρ c)

theorem bias2_5 : W5 m ρ c (Proc.devRef .tc main_arg5) = (m ((c : Thread nD τ).loc main_arg5)) :=
  (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (bias2_4 m ρ c)

theorem weights3_5 : W5 m ρ c (Proc.devRef .tc main_arg6) = (m ((c : Thread nD τ).loc main_arg6)) :=
  (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (weights3_4 m ρ c)

theorem classBias_5 : W5 m ρ c (Proc.devRef .tc main_arg7) = (m ((c : Thread nD τ).loc main_arg7)) :=
  (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (classBias_4 m ρ c)

/-! ## The second dense layer -/

theorem secondLayer_6 : W6 m ρ c (Proc.devRef .tc main_v45)
    = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.ReferenceIdeal.RefLayers.second_eq]
  refine (W6_arr m ρ c 3).trans ((Cert.KernelIdeal.HiddenLayer.final (V5 m ρ) c).trans ?_)
  exact congr (congr (congrArg Cert.Layers.hidden (agg1_5 m ρ c)) (biasRow1_5 m ρ c)) (weights2_5 m ρ c)

theorem src_6 : W6 m ρ c (Proc.devRef .tc main_v5) = Cert.ReferenceIdeal.Read.val_main_v5 (F := Ideal) (m ((c : Thread nD τ).loc main_arg1)) :=
  (W6_of_ne m ρ c main_v5 (by decide)).trans (src_5 m ρ c)

theorem dst_6 : W6 m ρ c (Proc.devRef .tc main_v6) = Cert.ReferenceIdeal.Read.val_main_v6 (F := Ideal) (m ((c : Thread nD τ).loc main_arg1)) :=
  (W6_of_ne m ρ c main_v6 (by decide)).trans (dst_5 m ρ c)

theorem coeff_6 : W6 m ρ c (Proc.devRef .tc main_v29) = Cert.ReferenceIdeal.Read.val_main_v29 (F := Ideal) (m ((c : Thread nD τ).loc main_arg1)) :=
  (W6_of_ne m ρ c main_v29 (by decide)).trans (coeff_5 m ρ c)

theorem bias2_6 : W6 m ρ c (Proc.devRef .tc main_arg5) = (m ((c : Thread nD τ).loc main_arg5)) :=
  (W6_of_ne m ρ c main_arg5 (by decide)).trans (bias2_5 m ρ c)

theorem weights3_6 : W6 m ρ c (Proc.devRef .tc main_arg6) = (m ((c : Thread nD τ).loc main_arg6)) :=
  (W6_of_ne m ρ c main_arg6 (by decide)).trans (weights3_5 m ρ c)

theorem classBias_6 : W6 m ρ c (Proc.devRef .tc main_arg7) = (m ((c : Thread nD τ).loc main_arg7)) :=
  (W6_of_ne m ρ c main_arg7 (by decide)).trans (classBias_5 m ρ c)

/-! ## The second aggregation, and the last two biases as rows -/

set_option maxHeartbeats 4000000 in
/-- The second aggregation stretch over any contents of the buffers it reads. -/
theorem aggregate2_of (V : Valuation τ sig (Elt Ideal)) (x0 : (⟨S100000x128, .f32⟩ : BufTy).Contents (Elt Ideal)) (x1 : (⟨S2x3200000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal))
    (h45 : V (Proc.devRef .tc main_v45) = Cert.ReferenceIdeal.Read.val_main_v48 (F := Ideal) x0 x1 x2 x3 x4)
    (h5 : V (Proc.devRef .tc main_v5) = Cert.ReferenceIdeal.Read.val_main_v5 (F := Ideal) x1)
    (h6 : V (Proc.devRef .tc main_v6) = Cert.ReferenceIdeal.Read.val_main_v6 (F := Ideal) x1)
    (h29 : V (Proc.devRef .tc main_v29) = Cert.ReferenceIdeal.Read.val_main_v29 (F := Ideal) x1) :
    StableHlo.after hostOps2 V (Proc.devRef .tc main_v58) = Cert.ReferenceIdeal.Read.val_main_v61 (F := Ideal) x0 x1 x2 x3 x4 := by
  dsimp only [hostOps2]
  after_results_simp
  rw [h45, h5, h6, h29]
  rfl

set_option maxHeartbeats 4000000 in
theorem biasRow2_of (V : Valuation τ sig (Elt Ideal)) (b : (⟨S32, .f32⟩ : BufTy).Contents (Elt Ideal))
    (h5 : V (Proc.devRef .tc main_arg5) = b) :
    Cert.KernelIdeal.Classifier.rowVec (StableHlo.after hostOps2 V (Proc.devRef .tc main_v59)) = b := by
  dsimp only [hostOps2]
  after_results_simp
  rw [h5]
  funext i
  obtain ⟨k, rfl⟩ : ∃ k : Fin 32, i = ix1 k := ⟨i 0, eq_ix1 i⟩
  exact shapeCast_a_1a_apply b shapeCasts_S32_S1x32 0 k

set_option maxHeartbeats 4000000 in
theorem classRow_of (V : Valuation τ sig (Elt Ideal)) (b : (⟨S2, .f32⟩ : BufTy).Contents (Elt Ideal))
    (h7 : V (Proc.devRef .tc main_arg7) = b) :
    Cert.KernelIdeal.Classifier.rowVec (StableHlo.after hostOps2 V (Proc.devRef .tc main_v60)) = b := by
  dsimp only [hostOps2]
  after_results_simp
  rw [h7]
  funext i
  obtain ⟨k, rfl⟩ : ∃ k : Fin 2, i = ix1 k := ⟨i 0, eq_ix1 i⟩
  exact shapeCast_a_1a_apply b shapeCasts_S2_S1x2 0 k

theorem agg2_7 : W7 m ρ c (Proc.devRef .tc main_v58)
    = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  aggregate2_of (W6 m ρ c) _ _ _ _ _ (secondLayer_6 m ρ c) (src_6 m ρ c) (dst_6 m ρ c) (coeff_6 m ρ c)

theorem biasRow2_7 : Cert.KernelIdeal.Classifier.rowVec (W7 m ρ c (Proc.devRef .tc main_v59)) = (m ((c : Thread nD τ).loc main_arg5)) :=
  biasRow2_of (W6 m ρ c) _ (bias2_6 m ρ c)

theorem classRow_7 : Cert.KernelIdeal.Classifier.rowVec (W7 m ρ c (Proc.devRef .tc main_v60)) = (m ((c : Thread nD τ).loc main_arg7)) :=
  classRow_of (W6 m ρ c) _ (classBias_6 m ρ c)

theorem weights3_7 : W7 m ρ c (Proc.devRef .tc main_arg6) = (m ((c : Thread nD τ).loc main_arg6)) :=
  (StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (weights3_6 m ρ c)

/-! ## The classifier: the program's result -/

theorem logits_8 : W8 m ρ c (Proc.devRef .tc main_v61)
    = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.ReferenceIdeal.RefLayers.third_eq]
  refine (W8_arr m ρ c 4).trans ((Cert.KernelIdeal.Classifier.final (V7 m ρ) c).trans ?_)
  exact congr (congr (congr (congrArg Cert.Layers.classify (agg2_7 m ρ c)) (biasRow2_7 m ρ c)) (weights3_7 m ρ c)) (classRow_7 m ρ c)

end Cert.KernelIdeal.Boundaries

end
-- ==== Proof.KernelRun.lean ====
/-
  The kernel program's run with its result named.

  The program is eight segments in a row: three host stretches, the first dense layer, a host stretch, the second
  dense layer, a host stretch, the classifier. Every weakly fair execution runs them in order and ends with every
  unscoped buffer at the last boundary's contents. Read at the result buffer those contents are the classifier's
  output, which the boundary lemmas identify with the reference's final stage applied to the launch arguments;
  read at an argument's buffer they are the launch contents.
-/
import proofs.«149034_j20521353741010_1_alg».proof.Proof.Gen.KernelIdeal.Frame
import proofs.«149034_j20521353741010_1_alg».proof.Proof.Boundaries

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the result buffer ends holding: the reference's final stage of the launch arguments. -/
abbrev logits (c : Dev nD) : (⟨Cert.ReferenceIdeal.S100000x2, .f32⟩ : BufTy).Contents (Elt Ideal) :=
  Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option backward.isDefEq.respectTransparency.types false in
/-- Every weakly fair execution of the kernel program terminates, nothing faulting, with the result buffer at
    the reference's final stage of the launch arguments and every argument as launched. -/
theorem run : θ_run defs (onTc (τ := τ) (main (F := Ideal))) ⟨m, fun _ => 0, ρ⟩ (fun r => ∀ c : Dev nD,
      r.2.mem ((c.tc : Thread nD τ).loc main_v61) = logits m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v61 (by decide))).trans (Cert.KernelIdeal.Boundaries.logits_8 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.ValueRun

end
-- ==== Proof.lean ====
/-
  A two-layer graph convolution with a linear classifier, computed two ways, gives equal results over the
  extended reals.

  Both programs compute, from node features x, an edge list, and weights and biases of three dense layers,
      logits = max(Â·max(Â·(x·W1) + b1, 0)·W2 + b2, 0)·Wc + bc,
  where Â·h gathers each edge's source row of h, scales it by the edge's normalisation coefficient and adds it
  into the destination row (self loops included). The reference does everything with array operations on the
  host. The kernel program computes the three dense layers block by block over the node axis, ten blocks of
  10000 rows, fusing each bias and rectifier into the following product, and leaves the edge stretches on the
  host, spelt exactly as the reference spells them.

  Over the extended reals a product's entry is a finite sum of products whichever unit computes it and however
  the rows are blocked, a change of float format is the identity, and both programs add the bias and take the
  maximum with zero in the same order before multiplying; so each dense layer of the kernel is the reference's
  stage of the same layer, and the edge stretches in between are the same operations on equal operands. No law
  that needs finiteness is used: the precondition is not opened.

  The three frames are the generated ones (the reference's is its generated run with the result dropped), the
  idealization's ledger is empty, and the algebraic claim pairs the kernel program's run, its result named as the
  reference's final stage of the launch arguments, with the reference's own run.
-/
import proofs.«149034_j20521353741010_1_alg».proof.Defs
import proofs.«149034_j20521353741010_1_alg».proof.Proof.Gen.Kernel
import proofs.«149034_j20521353741010_1_alg».proof.Proof.Gen.Kernel.Skeleton
import proofs.«149034_j20521353741010_1_alg».proof.Proof.Gen.Kernel.Launch
import proofs.«149034_j20521353741010_1_alg».proof.Proof.Gen.Kernel.Points
import proofs.«149034_j20521353741010_1_alg».proof.Proof.Gen.Kernel.Frame
import proofs.«149034_j20521353741010_1_alg».proof.Proof.Gen.KernelIdeal
import proofs.«149034_j20521353741010_1_alg».proof.Proof.Gen.KernelIdeal.Skeleton
import proofs.«149034_j20521353741010_1_alg».proof.Proof.Gen.KernelIdeal.Launch
import proofs.«149034_j20521353741010_1_alg».proof.Proof.Gen.KernelIdeal.Points
import proofs.«149034_j20521353741010_1_alg».proof.Proof.Gen.KernelIdeal.Frame
import proofs.«149034_j20521353741010_1_alg».proof.Proof.Gen.ReferenceIdeal
import proofs.«149034_j20521353741010_1_alg».proof.Proof.Gen.Pre_finite_inputs
import proofs.«149034_j20521353741010_1_alg».proof.Proof.RefRunPatched
import proofs.«149034_j20521353741010_1_alg».proof.Proof.RefReadPatched
import proofs.«149034_j20521353741010_1_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization applied no rewrite: nothing to preserve. -/
theorem preserves : Cert.preserves_Kernel_KernelIdeal := trivial

/-- Run from memories that agree on the arguments, both programs end with the result at the reference's final
    stage of those arguments. -/
theorem algebraic : Cert.algebraic_KernelIdeal_ReferenceIdeal := by
  intro m ρ m' ρ' _ hagree
  refine ⟨fun c => Cert.KernelIdeal.ValueRun.logits m c, Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
